-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S8 .f32) (main_arg5 : FVec F S8x1024x1024 .f32) (main_arg6 : FVec F S1024x1024 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1024x1024 .f32 := Host.absf main_arg5
  let main_cst_8 : FVec F S_ .f32 := constant S_ .f32 0x7F800000#32
  let main_v25 : FVec F S8x1024x1024 .f32 := broadcastInDim S8x1024x1024 ![] bcast_S_S8x1024x1024 main_cst_8
  let main_v26 : IVec S8x1024x1024 1 := cmpf .olt main_v24 main_v25
  let main_c_9 : IVec S_ 1 := constantI S_ 1 1#1
  let main_v27 : IVec S_ 1 := (fun x v => Host.reduce IntOp.andi x v reducesTo_S8x1024x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S256x1024 .f32) (main_arg2 : FVec F S256 .f32) (main_arg3 : FVec F S8x256 .f32) (main_arg4 : FVec F S8 .f32) (main_arg5 : FVec F S8x1024x1024 .f32) (main_arg6 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_arg5 main_arg6 main_v13 main_v16
-- ==== Kernel.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S1x256 : Shape := ⟨2, ![1, 256]⟩
abbrev S1x8 : Shape := ⟨2, ![1, 8]⟩
abbrev S512x1024 : Shape := ⟨2, ![512, 1024]⟩
abbrev S256x256 : Shape := ⟨2, ![256, 256]⟩
abbrev S256x8 : Shape := ⟨2, ![256, 8]⟩
abbrev S1x1024x1024 : Shape := ⟨3, ![1, 1024, 1024]⟩
abbrev S256x1 : Shape := ⟨2, ![256, 1]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8x1024x1024, .f32⟩
  | .hbm, ⟨6, _⟩ => ⟨S1024x1024, .f32⟩
  | .hbm, ⟨7, _⟩ => ⟨S256x1024, .bf16⟩
  | .hbm, ⟨8, _⟩ => ⟨S8x256, .bf16⟩
  | .hbm, ⟨9, _⟩ => ⟨S8x1024x1024, .bf16⟩
  | .hbm, ⟨10, _⟩ => ⟨S1024x1024, .bf16⟩
  | .hbm, ⟨11, _⟩ => ⟨S1x256, .f32⟩
  | .hbm, ⟨12, _⟩ => ⟨S1x8, .f32⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S1x256, .f32⟩
  | .local _ .vmem, ⟨4, _⟩ => ⟨S8x256, .bf16⟩
  | .local _ .vmem, ⟨5, _⟩ => ⟨S1x8, .f32⟩
  | .local _ .vmem, ⟨6, _⟩ => ⟨S8x1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S256_S1x256 : S256.ShapeCasts S1x256
  shapeCasts_S8_S1x8 : S8.ShapeCasts S1x8
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S256x1024_0_0 : ∀ a, (![0, 0] : Fin 2 → Nat) a + S256x1024.size a ≤ S512x1024.size a
  inb_S512x1024_S256x1024_256_0 : ∀ a, (![256, 0] : Fin 2 → Nat) a + S256x1024.size a ≤ S512x1024.size a
  broadcasts_S1x256_S256x256 : S1x256.Broadcasts S256x256
  broadcasts_S1x8_S256x8 : S1x8.Broadcasts S256x8
  inb_S8x1024x1024_S1x1024x1024_0_0_0 : ∀ a, (![0, 0, 0] : Fin 3 → Nat) a + S1x1024x1024.size a ≤ S8x1024x1024.size a
  h_S1x1024x1024 : 0 < S1x1024x1024.numel
  shapeCasts_S1x1024x1024_S1024x1024 : S1x1024x1024.ShapeCasts S1024x1024
  slices_S256x8_o0_0_S256x1 : S256x8.Slices ![0, 0] S256x1
  broadcasts_S256x1_S256x1024 : S256x1.Broadcasts S256x1024
  inb_S8x1024x1024_S1x1024x1024_1_0_0 : ∀ a, (![1, 0, 0] : Fin 3 → Nat) a + S1x1024x1024.size a ≤ S8x1024x1024.size a
  slices_S256x8_o0_1_S256x1 : S256x8.Slices ![0, 1] S256x1
  inb_S8x1024x1024_S1x1024x1024_2_0_0 : ∀ a, (![2, 0, 0] : Fin 3 → Nat) a + S1x1024x1024.size a ≤ S8x1024x1024.size a
  slices_S256x8_o0_2_S256x1 : S256x8.Slices ![0, 2] S256x1
  inb_S8x1024x1024_S1x1024x1024_3_0_0 : ∀ a, (![3, 0, 0] : Fin 3 → Nat) a + S1x1024x1024.size a ≤ S8x1024x1024.size a
  slices_S256x8_o0_3_S256x1 : S256x8.Slices ![0, 3] S256x1
  inb_S8x1024x1024_S1x1024x1024_4_0_0 : ∀ a, (![4, 0, 0] : Fin 3 → Nat) a + S1x1024x1024.size a ≤ S8x1024x1024.size a
  slices_S256x8_o0_4_S256x1 : S256x8.Slices ![0, 4] S256x1
  inb_S8x1024x1024_S1x1024x1024_5_0_0 : ∀ a, (![5, 0, 0] : Fin 3 → Nat) a + S1x1024x1024.size a ≤ S8x1024x1024.size a
  slices_S256x8_o0_5_S256x1 : S256x8.Slices ![0, 5] S256x1
  inb_S8x1024x1024_S1x1024x1024_6_0_0 : ∀ a, (![6, 0, 0] : Fin 3 → Nat) a + S1x1024x1024.size a ≤ S8x1024x1024.size a
  slices_S256x8_o0_6_S256x1 : S256x8.Slices ![0, 6] S256x1
  inb_S8x1024x1024_S1x1024x1024_7_0_0 : ∀ a, (![7, 0, 0] : Fin 3 → Nat) a + S1x1024x1024.size a ≤ S8x1024x1024.size a
  slices_S256x8_o0_7_S256x1 : S256x8.Slices ![0, 7] S256x1
  dot_S256x1024_S256x1024_S256x256_1_1_0_0_n_n_wf : DotDims.WF S256x1024 S256x1024 S256x256 [1] [1] [0] [0] [] []
  dot_S256x256_S8x256_S256x8_1_1_0_0_n_n_wf : DotDims.WF S256x256 S8x256 S256x8 [1] [1] [0] [0] [] []
  dot_S256x1024_S1024x1024_S256x1024_1_0_0_1_n_n_wf : DotDims.WF S256x1024 S1024x1024 S256x1024 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .bf16 = 32 ∨ (Rect.block (s := S8x256) S8x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024x1024.size a ≤ S8x1024x1024.size a
  hwx0_5 : ∀ i : grid0.Coords, EltTy.bits .bf16 = 32 ∨ (Rect.block (s := S8x1024x1024) S8x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x256_S8x256_S256x8_1_1_0_0_n_n : DotDims S256x256 S8x256 S256x8 where
  lhsContracting := [1]
  rhsContracting := [1]
  lhsNonContracting := [0]
  rhsNonContracting := [0]
  lhsBatch := []
  rhsBatch := []
  wf := dot_S256x256_S8x256_S256x8_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S256x1024 : Shape := ⟨2, ![256, 1024]⟩
abbrev S256 : Shape := ⟨1, ![256]⟩
abbrev S8x256 : Shape := ⟨2, ![8, 256]⟩
abbrev S8 : Shape := ⟨1, ![8]⟩
abbrev S8x1024x1024 : Shape := ⟨3, ![8, 1024, 1024]⟩
abbrev S1024x1024 : Shape := ⟨2, ![1024, 1024]⟩
abbrev S1024x256 : Shape := ⟨2, ![1024, 256]⟩
abbrev S4096x256 : Shape := ⟨2, ![4096, 256]⟩
abbrev S1x256 : Shape := ⟨2, ![1, 256]⟩
abbrev S_ : Shape := ⟨0, ![]⟩
abbrev S256x8 : Shape := ⟨2, ![256, 8]⟩
abbrev S4096x8 : Shape := ⟨2, ![4096, 8]⟩
abbrev S1x8 : Shape := ⟨2, ![1, 8]⟩
abbrev S4096x1 : Shape := ⟨2, ![4096, 1]⟩
abbrev S1x1024x1024 : Shape := ⟨3, ![1, 1024, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8x1024x1024, .f32⟩
  | .hbm, ⟨6, _⟩ => ⟨S1024x1024, .f32⟩
  | .hbm, ⟨7, _⟩ => ⟨S1024x256, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S256x8, .f32⟩
  | .hbm, ⟨16, _⟩ => ⟨S4096x8, .f32⟩
  | .hbm, ⟨17, _⟩ => ⟨S1x8, .f32⟩
  | .hbm, ⟨18, _⟩ => ⟨S4096x8, .f32⟩
  | .hbm, ⟨19, _⟩ => ⟨S4096x8, .f32⟩
  | .hbm, ⟨20, _⟩ => ⟨S4096x1, .f32⟩
  | .hbm, ⟨21, _⟩ => ⟨S1x1024x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1, .f32⟩
  | .hbm, ⟨28, _⟩ => ⟨S1x1024x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S1x1024x1024, .f32⟩
  | .hbm, ⟨36, _⟩ => ⟨S1024x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S1x1024x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S1x1024x1024, .f32⟩
  | .hbm, ⟨50, _⟩ => ⟨S1024x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S1x1024x1024, .f32⟩
  | .hbm, ⟨57, _⟩ => ⟨S1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S1x1024x1024, .f32⟩
  | .hbm, ⟨64, _⟩ => ⟨S1024x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S1x1024x1024, .f32⟩
  | .hbm, ⟨71, _⟩ => ⟨S1024x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1024x1024, .f32⟩
  | .hbm, ⟨77, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S8x256_S256x8_1_0 : S8x256.Transposes [1, 0] S256x8
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  slices_S4096x8_S4096x1_0_0 : S4096x8.Slices ![0, 0] S4096x1
  slices_S8x1024x1024_S1x1024x1024_0_0_0 : S8x1024x1024.Slices ![0, 0, 0] S1x1024x1024
  shapeCasts_S1x1024x1024_S1024x1024 : S1x1024x1024.ShapeCasts S1024x1024
  bcast_S4096x1_S4096x1024_0_1 : S4096x1.BroadcastsInDim S4096x1024 (![0, 1] : Fin 2 → Fin S4096x1024.rank)
  slices_S4096x8_S4096x1_0_1 : S4096x8.Slices ![0, 1] S4096x1
  slices_S8x1024x1024_S1x1024x1024_1_0_0 : S8x1024x1024.Slices ![1, 0, 0] S1x1024x1024
  slices_S4096x8_S4096x1_0_2 : S4096x8.Slices ![0, 2] S4096x1
  slices_S8x1024x1024_S1x1024x1024_2_0_0 : S8x1024x1024.Slices ![2, 0, 0] S1x1024x1024
  slices_S4096x8_S4096x1_0_3 : S4096x8.Slices ![0, 3] S4096x1
  slices_S8x1024x1024_S1x1024x1024_3_0_0 : S8x1024x1024.Slices ![3, 0, 0] S1x1024x1024
  slices_S4096x8_S4096x1_0_4 : S4096x8.Slices ![0, 4] S4096x1
  slices_S8x1024x1024_S1x1024x1024_4_0_0 : S8x1024x1024.Slices ![4, 0, 0] S1x1024x1024
  slices_S4096x8_S4096x1_0_5 : S4096x8.Slices ![0, 5] S4096x1
  slices_S8x1024x1024_S1x1024x1024_5_0_0 : S8x1024x1024.Slices ![5, 0, 0] S1x1024x1024
  slices_S4096x8_S4096x1_0_6 : S4096x8.Slices ![0, 6] S4096x1
  slices_S8x1024x1024_S1x1024x1024_6_0_0 : S8x1024x1024.Slices ![6, 0, 0] S1x1024x1024
  slices_S4096x8_S4096x1_0_7 : S4096x8.Slices ![0, 7] S4096x1
  slices_S8x1024x1024_S1x1024x1024_7_0_0 : S8x1024x1024.Slices ![7, 0, 0] S1x1024x1024
  transposes_S1024x1024_S1024x1024_1_0 : S1024x1024.Transposes [1, 0] S1024x1024
  dot_S4096x1024_S1024x256_S4096x256_1_0_0_1_n_n_wf : DotDims.WF S4096x1024 S1024x256 S4096x256 [1] [0] [0] [1] [] []
  dot_S4096x256_S256x8_S4096x8_1_0_0_1_n_n_wf : DotDims.WF S4096x256 S256x8 S4096x8 [1] [0] [0] [1] [] []
  dot_S4096x1024_S1024x1024_S4096x1024_1_0_0_1_n_n_wf : DotDims.WF S4096x1024 S1024x1024 S4096x1024 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x8_S4096x8_1_0_0_1_n_n : DotDims S4096x256 S256x8 S4096x8 where
  lhsContracting := [1]
  rhsContracting := [0]
  lhsNonContracting := [0]
  rhsNonContracting := [1]
  lhsBatch := []
  rhsBatch := []
  wf := dot_S4096x256_S256x8_S4096x8_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.RowSpec.lean ====
/-
  The soft task-vector head, one row at a time, on the extended reals.

  Every row `x` of the feature matrix is treated independently of the others:
    * a two-layer router gives eight coefficients,  c = W2 · max(W1 · x + b1, 0) + b2;
    * eight updates follow one another,  t ← t + c_j · (t · M_j)  for j = 0 … 7, starting from t = x,
      where `t · M_j` is the row vector times the j-th 1024 × 1024 slab of the task tensor;
    * the result is projected,  out = Wp · t  (the row vector against the transpose of Wp).
  Nothing here mixes rows, so a tiling of the rows — whole matrix at once, 512 rows per block, two halves
  of 256 rows inside a block — computes the same entries; the two programs are compared through `outRow`.
  No law beyond "the same sums of the same products" is used, so nothing needs the entries to be finite.
-/
import Idealize.ShloMosaic.PureOps.Ideal
import Idealize.ShloMosaic.Lib.ValueIdx

noncomputable section

open scoped BigOperators

namespace Cert.TaskRows

open Idealize.ShloMosaic Idealize.ShloMosaic.ValueIdx

/-- The f32 word of zero as an extended real: the threshold of the rectifier. Both programs carry the same
    word, so its value is never needed. -/
abbrev zeroWord : EReal := Ideal.ofBits .f32 0x00000000#32

/-- Row `p` of a matrix, as a function of the column. -/
def row {R C : ℕ} (v : (⟨2, ![R, C]⟩ : Shape).Idx → EReal) (p : Fin R) : Fin C → EReal := fun k => v (ix2 p k)

/-- Slab `j` of a stack of square matrices, as a function of row and column. -/
def slab {T D : ℕ} (M : (⟨3, ![T, D, D]⟩ : Shape).Idx → EReal) (j : Fin T) : Fin D → Fin D → EReal :=
  fun k q => M (ix3 j k q)

/-- The router's hidden layer on one row: `max(Σ_k x_k · W1[a, k] + b1[a], 0)`. -/
def hidden {H D : ℕ} (W1 : (⟨2, ![H, D]⟩ : Shape).Idx → EReal) (b1 : Fin H → EReal) (x : Fin D → EReal) : Fin H → EReal :=
  fun a => max ((∑ k : Fin D, x k * W1 (ix2 a k)) + b1 a) zeroWord

/-- The router's coefficients from the hidden layer: `Σ_a h_a · W2[j, a] + b2[j]`. -/
def coeff {T H : ℕ} (W2 : (⟨2, ![T, H]⟩ : Shape).Idx → EReal) (b2 : Fin T → EReal) (h : Fin H → EReal) : Fin T → EReal :=
  fun j => (∑ a : Fin H, h a * W2 (ix2 j a)) + b2 j

/-- One update of the running row: `t_q + c · Σ_k t_k · M[k, q]`. -/
def step {D : ℕ} (c : EReal) (M : Fin D → Fin D → EReal) (t : Fin D → EReal) : Fin D → EReal :=
  fun q => t q + c * ∑ k : Fin D, t k * M k q

/-- The eight updates in order, slab 0 first. -/
def chain {D : ℕ} (c : Fin 8 → EReal) (M : (⟨3, ![8, D, D]⟩ : Shape).Idx → EReal) (x : Fin D → EReal) : Fin D → EReal :=
  step (c 7) (slab M 7) (step (c 6) (slab M 6) (step (c 5) (slab M 5) (step (c 4) (slab M 4)
    (step (c 3) (slab M 3) (step (c 2) (slab M 2) (step (c 1) (slab M 1) (step (c 0) (slab M 0) x)))))))

/-- The final projection against the transpose: `Σ_k t_k · Wp[q, k]`. -/
def project {D E : ℕ} (Wp : (⟨2, ![E, D]⟩ : Shape).Idx → EReal) (t : Fin D → EReal) : Fin E → EReal :=
  fun q => ∑ k : Fin D, t k * Wp (ix2 q k)

/-- One output row from one input row. -/
def outRow {H D E : ℕ} (W1 : (⟨2, ![H, D]⟩ : Shape).Idx → EReal) (b1 : Fin H → EReal)
    (W2 : (⟨2, ![8, H]⟩ : Shape).Idx → EReal) (b2 : Fin 8 → EReal)
    (M : (⟨3, ![8, D, D]⟩ : Shape).Idx → EReal) (Wp : (⟨2, ![E, D]⟩ : Shape).Idx → EReal)
    (x : Fin D → EReal) : Fin E → EReal :=
  project Wp (chain (coeff W2 b2 (hidden W1 b1 x)) M x)

/-- The whole result: entry `(r, q)` is entry `q` of the output row made from input row `r`. -/
def result {B H D E : ℕ} (X : (⟨2, ![B, D]⟩ : Shape).Idx → EReal)
    (W1 : (⟨2, ![H, D]⟩ : Shape).Idx → EReal) (b1 : (⟨1, ![H]⟩ : Shape).Idx → EReal)
    (W2 : (⟨2, ![8, H]⟩ : Shape).Idx → EReal) (b2 : (⟨1, ![8]⟩ : Shape).Idx → EReal)
    (M : (⟨3, ![8, D, D]⟩ : Shape).Idx → EReal) (Wp : (⟨2, ![E, D]⟩ : Shape).Idx → EReal) :
    (⟨2, ![B, E]⟩ : Shape).Idx → EReal :=
  fun i => outRow W1 (fun a => b1 (ix1 a)) W2 (fun j => b2 (ix1 j)) M Wp (row X (i 0)) (i 1)

end Cert.TaskRows

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibRowOps.lean ====
/-
  Operation trees read one row at a time, on the extended reals (general lemmas: any extents, no program).

  Each lemma takes a small tree of vector operations whose row `p` depends only on row `p` of its
  activations, and reads that row as a function of the activations' row:
    * a product against the transpose of a weight matrix  (`x · Wᵀ`: a matmul into a zero accumulator
      contracting the second axis of both operands, or the host's transpose followed by a plain product);
    * one scaled update  `t + c[:, j] ⊙ (t · M)`  (the coefficient column sliced out of a matrix of
      coefficients and repeated across the columns; `M` given whole, or as slab `j` of a rank-3 stack);
    * the two-layer router  `max(x · W1ᵀ + b1, 0) · W2ᵀ + b2`  (its biases given as rows `[1, H]`, `[1, T]` and
      repeated down the rows, or given as vectors and laid out by two broadcasts).
  A change of float format is the identity on the extended reals, so the roundings to bf16 in front of a
  matmul do not show in the statements' right-hand sides.
-/
import proofs.«156942_j773094113739_2_alg».proof.Proof.RowSpec
import proofs.«156942_j773094113739_2_alg».proof.Proof.LibPlainDot
import proofs.«156942_j773094113739_2_alg».proof.Proof.LibDotNT
import proofs.«156942_j773094113739_2_alg».proof.Proof.LibColumn
import proofs.«156942_j773094113739_2_alg».proof.Proof.LibBroadcast
import Idealize.ShloMosaic.Lib.ValueLayout
import Idealize.ShloMosaic.Lib.Pipeline.Value

noncomputable section

open scoped BigOperators

namespace Cert.TaskRows

open Idealize.ShloMosaic Idealize.ShloMosaic.ValueIdx

/-! ## Products against a transposed weight matrix -/

/-- A matmul into a zero accumulator that contracts the second axis of both operands, its left operand rounded to
    bf16 first: row `p` of the product is the projection of row `p` of the left operand. -/
theorem matmulNT_apply {R K N : ℕ} {d : DotDims ⟨2, ![R, K]⟩ ⟨2, ![N, K]⟩ ⟨2, ![R, N]⟩} (hd : Cert.DotNT.IsNT d)
    (t : FVec Ideal ⟨2, ![R, K]⟩ .f32) (w : FVec Ideal ⟨2, ![N, K]⟩ .bf16) (hlt : FTy.bf16.bits < FTy.f32.bits)
    (p : Fin R) (c : Fin N) :
    matmul d none (truncf .bf16 t hlt) w (constant ⟨2, ![R, N]⟩ .f32 0x00000000#32) (ix2 p c) = project w (row t p) c :=
  Cert.DotNT.matmul_zero_apply hd none (truncf .bf16 t hlt) w p c

/-- The host's form of the same product: the weight matrix transposed, then a plain product. -/
theorem hostNT_apply {R K N : ℕ} {d : DotDims ⟨2, ![R, K]⟩ ⟨2, ![K, N]⟩ ⟨2, ![R, N]⟩} (hd : Cert.PlainDot.IsPlain d)
    (t : FVec Ideal ⟨2, ![R, K]⟩ .f32) (w : FVec Ideal ⟨2, ![N, K]⟩ .f32)
    (ht : (⟨2, ![N, K]⟩ : Shape).Transposes [1, 0] ⟨2, ![K, N]⟩) (p : Fin R) (c : Fin N) :
    Host.dotGeneral d none t (transpose ⟨2, ![K, N]⟩ [1, 0] w ht) (ix2 p c) = project w (row t p) c := by
  rw [Cert.PlainDot.dotGeneral_apply hd]
  exact Finset.sum_congr rfl fun q _ => by rw [transpose_ix2_apply]; rfl

/-! ## One scaled update -/

/-- The kernel's form: coefficient column `j` sliced out of a coefficient matrix, repeated across the columns,
    times the product of the (rounded) running matrix with `M`, added to the running matrix. -/
theorem matmul_step_row {R D T : ℕ} {d : DotDims ⟨2, ![R, D]⟩ ⟨2, ![D, D]⟩ ⟨2, ![R, D]⟩} (hd : Cert.PlainDot.IsPlain d)
    (t : FVec Ideal ⟨2, ![R, D]⟩ .f32) (cf : FVec Ideal ⟨2, ![R, T]⟩ .f32) (M : FVec Ideal ⟨2, ![D, D]⟩ .bf16)
    (o : ℕ) (j : Fin T) (hj : j.val = o + (0 : Fin 1).val)
    (hs : (⟨2, ![R, T]⟩ : Shape).Slices ![0, o] ⟨2, ![R, 1]⟩) (hb : (⟨2, ![R, 1]⟩ : Shape).Broadcasts ⟨2, ![R, D]⟩)
    (hlt : FTy.bf16.bits < FTy.f32.bits) (p : Fin R) :
    row (addf t (mulf (broadcastTo ⟨2, ![R, D]⟩ (extractStridedSlice ⟨2, ![R, 1]⟩ ![0, o] cf hs) hb)
        (matmul d none (truncf .bf16 t hlt) M (constant ⟨2, ![R, D]⟩ .f32 0x00000000#32)))) p
      = step (cf (ix2 p j)) (fun k q => M (ix2 k q)) (row t p) := by
  funext q
  show t (ix2 p q) + broadcastTo ⟨2, ![R, D]⟩ (extractStridedSlice ⟨2, ![R, 1]⟩ ![0, o] cf hs) hb (ix2 p q)
      * matmul d none (truncf .bf16 t hlt) M (constant ⟨2, ![R, D]⟩ .f32 0x00000000#32) (ix2 p q) = _
  rw [Cert.Column.broadcastTo_a1_ab_apply, slice2_axis1_apply o cf hs p (0 : Fin 1) j hj,
    Cert.PlainDot.matmul_zero_apply hd]
  rfl

/-- Slab `j` of a rank-3 stack cut out along the leading axis and its unit axis dropped. -/
theorem slab_apply {T D : ℕ} (A : (⟨3, ![T, D, D]⟩ : Shape).Idx → EReal) (o : ℕ) (j : Fin T) (hj : j.val = o + (0 : Fin 1).val)
    (hs : (⟨3, ![T, D, D]⟩ : Shape).Slices ![o, 0, 0] ⟨3, ![1, D, D]⟩)
    (hc : (⟨3, ![1, D, D]⟩ : Shape).ShapeCasts ⟨2, ![D, D]⟩) (k q : Fin D) :
    shapeCast ⟨2, ![D, D]⟩ (extractStridedSlice ⟨3, ![1, D, D]⟩ ![o, 0, 0] A hs) hc (ix2 k q) = slab A j k q := by
  rw [shapeCast_1ab_ab_apply]
  exact extractStridedSlice_apply _ _ _ _ _ (fun ax => by
    match ax with
    | ⟨0, _⟩ => exact hj
    | ⟨1, _⟩ => exact (Nat.zero_add _).symm
    | ⟨2, _⟩ => exact (Nat.zero_add _).symm)

/-- The host's form: the coefficient column by a slice and a broadcast along both axes, the slab cut out of the
    rank-3 stack, a plain product. -/
theorem host_step_row {R D T : ℕ} (hR : R ≠ 1) {d : DotDims ⟨2, ![R, D]⟩ ⟨2, ![D, D]⟩ ⟨2, ![R, D]⟩} (hd : Cert.PlainDot.IsPlain d)
    (t : FVec Ideal ⟨2, ![R, D]⟩ .f32) (cf : FVec Ideal ⟨2, ![R, T]⟩ .f32) (A : FVec Ideal ⟨3, ![T, D, D]⟩ .f32)
    (o : ℕ) (j : Fin T) (hj : j.val = o + (0 : Fin 1).val)
    (hs : (⟨2, ![R, T]⟩ : Shape).Slices ![0, o] ⟨2, ![R, 1]⟩)
    (hb : (⟨2, ![R, 1]⟩ : Shape).BroadcastsInDim ⟨2, ![R, D]⟩ ![0, 1])
    (hs3 : (⟨3, ![T, D, D]⟩ : Shape).Slices ![o, 0, 0] ⟨3, ![1, D, D]⟩)
    (hc : (⟨3, ![1, D, D]⟩ : Shape).ShapeCasts ⟨2, ![D, D]⟩) (p : Fin R) :
    row (addf t (mulf (broadcastInDim ⟨2, ![R, D]⟩ ![0, 1] hb (extractStridedSlice ⟨2, ![R, 1]⟩ ![0, o] cf hs))
        (Host.dotGeneral d none t (shapeCast ⟨2, ![D, D]⟩ (extractStridedSlice ⟨3, ![1, D, D]⟩ ![o, 0, 0] A hs3) hc)))) p
      = step (cf (ix2 p j)) (slab A j) (row t p) := by
  funext q
  show t (ix2 p q) + broadcastInDim ⟨2, ![R, D]⟩ ![0, 1] hb (extractStridedSlice ⟨2, ![R, 1]⟩ ![0, o] cf hs) (ix2 p q)
      * Host.dotGeneral d none t (shapeCast ⟨2, ![D, D]⟩ (extractStridedSlice ⟨3, ![1, D, D]⟩ ![o, 0, 0] A hs3) hc) (ix2 p q) = _
  rw [Cert.Bcast.rows_of_col_apply hR, slice2_axis1_apply o cf hs p (0 : Fin 1) j hj, Cert.PlainDot.dotGeneral_apply hd]
  show _ = t (ix2 p q) + cf (ix2 p j) * ∑ k : Fin D, t (ix2 p k) * slab A j k q
  refine congrArg (fun s => t (ix2 p q) + cf (ix2 p j) * s) (Finset.sum_congr rfl fun k _ => ?_)
  rw [slab_apply A o j hj hs3 hc]

/-! ## The router -/

/-- The kernel's form: two matmuls against transposed weights, each bias a `[1, ·]` row repeated down the rows,
    the rectifier a maximum with a splat of the zero word. -/
theorem matmul_router_apply {R D H T : ℕ}
    {d1 : DotDims ⟨2, ![R, D]⟩ ⟨2, ![H, D]⟩ ⟨2, ![R, H]⟩} (hd1 : Cert.DotNT.IsNT d1)
    {d2 : DotDims ⟨2, ![R, H]⟩ ⟨2, ![T, H]⟩ ⟨2, ![R, T]⟩} (hd2 : Cert.DotNT.IsNT d2)
    (x : FVec Ideal ⟨2, ![R, D]⟩ .f32) (w1 : FVec Ideal ⟨2, ![H, D]⟩ .bf16) (b1 : FVec Ideal ⟨2, ![1, H]⟩ .f32)
    (w2 : FVec Ideal ⟨2, ![T, H]⟩ .bf16) (b2 : FVec Ideal ⟨2, ![1, T]⟩ .f32)
    (hb1 : (⟨2, ![1, H]⟩ : Shape).Broadcasts ⟨2, ![R, H]⟩) (hb2 : (⟨2, ![1, T]⟩ : Shape).Broadcasts ⟨2, ![R, T]⟩)
    (hlt : FTy.bf16.bits < FTy.f32.bits) (p : Fin R) (j : Fin T) :
    addf (matmul d2 none (truncf .bf16 (maximumf (addf (matmul d1 none (truncf .bf16 x hlt) w1 (constant ⟨2, ![R, H]⟩ .f32 0x00000000#32))
            (broadcastTo ⟨2, ![R, H]⟩ b1 hb1)) (broadcast ⟨2, ![R, H]⟩ (Scalar.ofBits (F := Ideal) .f32 0x00000000#32))) hlt) w2
          (constant ⟨2, ![R, T]⟩ .f32 0x00000000#32)) (broadcastTo ⟨2, ![R, T]⟩ b2 hb2) (ix2 p j)
      = coeff w2 (fun j => b2 (ix2 (0 : Fin 1) j)) (hidden w1 (fun a => b1 (ix2 (0 : Fin 1) a)) (row x p)) j := by
  show matmul d2 none _ w2 (constant ⟨2, ![R, T]⟩ .f32 0x00000000#32) (ix2 p j) + broadcastTo ⟨2, ![R, T]⟩ b2 hb2 (ix2 p j) = _
  rw [matmulNT_apply hd2, broadcastTo_1b_ab_apply]
  show (∑ a : Fin H, _ * w2 (ix2 j a)) + b2 (ix2 (0 : Fin 1) j) = (∑ a : Fin H, _ * w2 (ix2 j a)) + b2 (ix2 (0 : Fin 1) j)
  refine congrArg (· + b2 (ix2 (0 : Fin 1) j)) (Finset.sum_congr rfl fun a _ => congrArg (· * w2 (ix2 j a)) ?_)
  show max (matmul d1 none (truncf .bf16 x hlt) w1 (constant ⟨2, ![R, H]⟩ .f32 0x00000000#32) (ix2 p a)
      + broadcastTo ⟨2, ![R, H]⟩ b1 hb1 (ix2 p a)) zeroWord = _
  rw [matmulNT_apply hd1, broadcastTo_1b_ab_apply]
  rfl

/-- The host's form: each weight matrix transposed and then a plain product, each bias laid out as a row and
    repeated down the rows by two broadcasts, the rectifier a maximum with a broadcast rank-0 zero word. -/
theorem host_router_apply {R D H T : ℕ} (hH : H ≠ 1) (hT : T ≠ 1)
    {d1 : DotDims ⟨2, ![R, D]⟩ ⟨2, ![D, H]⟩ ⟨2, ![R, H]⟩} (hd1 : Cert.PlainDot.IsPlain d1)
    {d2 : DotDims ⟨2, ![R, H]⟩ ⟨2, ![H, T]⟩ ⟨2, ![R, T]⟩} (hd2 : Cert.PlainDot.IsPlain d2)
    (x : FVec Ideal ⟨2, ![R, D]⟩ .f32) (w1 : FVec Ideal ⟨2, ![H, D]⟩ .f32) (b1 : FVec Ideal ⟨1, ![H]⟩ .f32)
    (w2 : FVec Ideal ⟨2, ![T, H]⟩ .f32) (b2 : FVec Ideal ⟨1, ![T]⟩ .f32)
    (ht1 : (⟨2, ![H, D]⟩ : Shape).Transposes [1, 0] ⟨2, ![D, H]⟩)
    (ht2 : (⟨2, ![T, H]⟩ : Shape).Transposes [1, 0] ⟨2, ![H, T]⟩)
    (hb1a : (⟨1, ![H]⟩ : Shape).BroadcastsInDim ⟨2, ![1, H]⟩ ![1])
    (hb1b : (⟨2, ![1, H]⟩ : Shape).BroadcastsInDim ⟨2, ![R, H]⟩ ![0, 1])
    (hb2a : (⟨1, ![T]⟩ : Shape).BroadcastsInDim ⟨2, ![1, T]⟩ ![1])
    (hb2b : (⟨2, ![1, T]⟩ : Shape).BroadcastsInDim ⟨2, ![R, T]⟩ ![0, 1])
    (hz : (⟨0, ![]⟩ : Shape).BroadcastsInDim ⟨2, ![R, H]⟩ ![]) (p : Fin R) (j : Fin T) :
    addf (Host.dotGeneral d2 none
          (maximumf (addf (Host.dotGeneral d1 none x (transpose ⟨2, ![D, H]⟩ [1, 0] w1 ht1))
              (broadcastInDim ⟨2, ![R, H]⟩ ![0, 1] hb1b (broadcastInDim ⟨2, ![1, H]⟩ ![1] hb1a b1)))
            (broadcastInDim ⟨2, ![R, H]⟩ ![] hz (constant (F := Ideal) ⟨0, ![]⟩ .f32 0x00000000#32)))
          (transpose ⟨2, ![H, T]⟩ [1, 0] w2 ht2))
        (broadcastInDim ⟨2, ![R, T]⟩ ![0, 1] hb2b (broadcastInDim ⟨2, ![1, T]⟩ ![1] hb2a b2)) (ix2 p j)
      = coeff w2 (fun j => b2 (ix1 j)) (hidden w1 (fun a => b1 (ix1 a)) (row x p)) j := by
  show Host.dotGeneral d2 none _ (transpose ⟨2, ![H, T]⟩ [1, 0] w2 ht2) (ix2 p j)
      + broadcastInDim ⟨2, ![R, T]⟩ ![0, 1] hb2b (broadcastInDim ⟨2, ![1, T]⟩ ![1] hb2a b2) (ix2 p j) = _
  rw [hostNT_apply hd2, Cert.Bcast.bias_rows_apply hT]
  show (∑ a : Fin H, _ * w2 (ix2 j a)) + b2 (ix1 j) = (∑ a : Fin H, _ * w2 (ix2 j a)) + b2 (ix1 j)
  refine congrArg (· + b2 (ix1 j)) (Finset.sum_congr rfl fun a _ => congrArg (· * w2 (ix2 j a)) ?_)
  show max (Host.dotGeneral d1 none x (transpose ⟨2, ![D, H]⟩ [1, 0] w1 ht1) (ix2 p a)
      + broadcastInDim ⟨2, ![R, H]⟩ ![0, 1] hb1b (broadcastInDim ⟨2, ![1, H]⟩ ![1] hb1a b1) (ix2 p a))
      (broadcastInDim ⟨2, ![R, H]⟩ ![] hz (constant (F := Ideal) ⟨0, ![]⟩ .f32 0x00000000#32) (ix2 p a)) = _
  rw [hostNT_apply hd1, Cert.Bcast.bias_rows_apply hH, Cert.Bcast.scalar_apply]
  rfl

end Cert.TaskRows

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.KernelTile.lean ====
/-
  One 512-row tile of the kernel, read entry by entry.

  The kernel's body works on a tile of 512 feature rows as two independent halves of 256 rows. For each half
  it computes the router's eight coefficients from the half's rows, applies the eight updates
  `t ← t + c_j ⊙ (t · M_j)` one after the other (the body states them in groups: updates 0–2, then 3–5, then 6–7
  followed by the projection), and stores the projected half into its rows of the output tile. Row `p` of every
  intermediate depends only on row `p` of the half, so each group is read as a function of that one row, and the
  groups compose to `outRow` of the row. The two stores tile the output buffer, so entry `(P, q)` of the buffer
  is entry `q` of `outRow` of the tile's row `P`, whichever half `P` falls in.
-/
import proofs.«156942_j773094113739_2_alg».proof.Proof.Gen.KernelIdeal.Frame
import proofs.«156942_j773094113739_2_alg».proof.Proof.LibRowOps
import proofs.«156942_j773094113739_2_alg».proof.Proof.LibDropUnit
import proofs.«156942_j773094113739_2_alg».proof.Proof.LibLoadAt

noncomputable section

open scoped BigOperators

namespace Cert.KernelIdeal.Tile

open Cert.KernelIdeal Cert.KernelIdeal.Gen Idealize.ShloMosaic Idealize.ShloMosaic.ValueIdx Cert.TaskRows

/-! ## The four products' dimension numbers -/

theorem nt1 : Cert.DotNT.IsNT dot_S256x1024_S256x1024_S256x256_1_1_0_0_n_n := ⟨rfl, rfl, rfl, rfl, rfl, rfl⟩
theorem nt2 : Cert.DotNT.IsNT dot_S256x256_S8x256_S256x8_1_1_0_0_n_n := ⟨rfl, rfl, rfl, rfl, rfl, rfl⟩
theorem plainM : Cert.PlainDot.IsPlain dot_S256x1024_S1024x1024_S256x1024_1_0_0_1_n_n := ⟨rfl, rfl, rfl, rfl, rfl, rfl⟩
theorem ntP : Cert.DotNT.IsNT dot_S256x1024_S1024x1024_S256x1024_1_1_0_0_n_n := ⟨rfl, rfl, rfl, rfl, rfl, rfl⟩

/-! ## The router -/

/-- The coefficients of a half: entry `(p, j)` is coefficient `j` of the router on row `p` of the half. -/
theorem router9 (w1 : Vec Ideal S256x1024 .bf16) (b1 : Vec Ideal S1x256 .f32) (w2 : Vec Ideal S8x256 .bf16)
    (b2 : Vec Ideal S1x8 .f32) (x : Vec Ideal S256x1024 .f32) (p : Fin 256) (j : Fin 8) :
    k0_pay9 w1 b1 w2 b2 x (ix2 p j)
      = coeff w2 (fun j => b2 (ix2 (0 : Fin 1) j)) (hidden w1 (fun a => b1 (ix2 (0 : Fin 1) a)) (row x p)) j := by
  unfold k0_pay9 k0_pay4 k0_pay5 k0_pay6 k0_pay7
  simp only [shapeCast_self]
  exact matmul_router_apply nt1 nt2 x w1 b1 w2 b2 _ _ _ p j

/-- The second half's router is the first half's, word for word. -/
theorem router10_eq : @k0_pay10 Ideal _ = @k0_pay9 Ideal _ := rfl

/-! ## One update against a loaded slab -/

/-- The square matrix a loaded `[1, 1024, 1024]` block holds. -/
def mat1 (s : Vec Ideal S1x1024x1024 .bf16) : Fin 1024 → Fin 1024 → EReal := fun k q => s (ix3 (0 : Fin 1) k q)

/-- One update whose matrix is a loaded slab with its unit axis cast away. -/
theorem kstep (t : FVec Ideal S256x1024 .f32) (cf : FVec Ideal S256x8 .f32) (s : Vec Ideal S1x1024x1024 .bf16)
    (o : ℕ) (j : Fin 8) (hj : j.val = o + (0 : Fin 1).val) (hs : S256x8.Slices ![0, o] S256x1)
    (hb : S256x1.Broadcasts S256x1024) (hc : S1x1024x1024.ShapeCasts S1024x1024) (hlt : FTy.bf16.bits < FTy.f32.bits)
    (p : Fin 256) :
    row (addf t (mulf (broadcastTo S256x1024 (extractStridedSlice S256x1 ![0, o] cf hs) hb)
        (matmul dot_S256x1024_S1024x1024_S256x1024_1_0_0_1_n_n none (truncf .bf16 t hlt)
          (shapeCast S1024x1024 s hc : FVec Ideal S1024x1024 .bf16) (constant S256x1024 .f32 0x00000000#32)))) p
      = step (cf (ix2 p j)) (mat1 s) (row t p) := by
  rw [matmul_step_row plainM t cf _ o j hj hs hb hlt p]
  exact congrArg (fun M => step (cf (ix2 p j)) M (row t p))
    (funext fun k => funext fun q => Cert.DropUnit.dropUnit_apply s hc k q)

/-- The cast-away slab as a matrix function. -/
theorem mat_cast (s : Vec Ideal S1x1024x1024 .bf16) (hc : S1x1024x1024.ShapeCasts S1024x1024) :
    (fun k q => (shapeCast S1024x1024 s hc : FVec Ideal S1024x1024 .bf16) (ix2 k q)) = mat1 s :=
  funext fun k => funext fun q => Cert.DropUnit.dropUnit_apply s hc k q

/-! ## The first half's groups -/

/-- Updates 0, 1, 2 of the first half. -/
theorem pay15_row (x : Vec Ideal S256x1024 .f32) (cf : FVec Ideal S256x8 .f32) (s0 s1 s2 : Vec Ideal S1x1024x1024 .bf16)
    (p : Fin 256) :
    row (k0_pay15 x cf (k0_pay11 s0) (k0_pay12 x) (constant S256x1024 .f32 0x00000000#32) s1 s2) p
      = step (cf (ix2 p 2)) (mat1 s2) (step (cf (ix2 p 1)) (mat1 s1) (step (cf (ix2 p 0)) (mat1 s0) (row x p))) := by
  unfold k0_pay15 k0_pay11 k0_pay12 k0_pay13 k0_pay14
  rw [kstep (s := s2) (o := 2) (j := 2) (hj := rfl), kstep (s := s1) (o := 1) (j := 1) (hj := rfl),
    kstep (s := s0) (o := 0) (j := 0) (hj := rfl)]

/-- Updates 3, 4, 5 of the first half, from the running matrix `t` after update 2. -/
theorem pay22_row (cf : FVec Ideal S256x8 .f32) (t : FVec Ideal S256x1024 .f32) (s3 s4 s5 : Vec Ideal S1x1024x1024 .bf16)
    (p : Fin 256) :
    row (k0_pay22 cf t (matmul dot_S256x1024_S1024x1024_S256x1024_1_0_0_1_n_n none (truncf .bf16 t bitsLt_bf16_f32)
        (k0_pay17 s3) (constant S256x1024 .f32 0x00000000#32)) s4 s5) p
      = step (cf (ix2 p 5)) (mat1 s5) (step (cf (ix2 p 4)) (mat1 s4) (step (cf (ix2 p 3)) (mat1 s3) (row t p))) := by
  unfold k0_pay22 k0_pay17 k0_pay20 k0_pay21
  rw [kstep (s := s5) (o := 5) (j := 5) (hj := rfl), kstep (s := s4) (o := 4) (j := 4) (hj := rfl),
    kstep (s := s3) (o := 3) (j := 3) (hj := rfl)]

/-- Updates 6, 7 and the projection of the first half, from the running matrix `t` after update 5. -/
theorem pay2_apply (wp : Vec Ideal S1024x1024 .bf16) (cf : FVec Ideal S256x8 .f32) (t : FVec Ideal S256x1024 .f32)
    (s6 s7 : Vec Ideal S1x1024x1024 .bf16) (p : Fin 256) (q : Fin 1024) :
    k0_pay2 (k0_pay8 wp) cf t (matmul dot_S256x1024_S1024x1024_S256x1024_1_0_0_1_n_n none (truncf .bf16 t bitsLt_bf16_f32)
        (k0_pay24 s6) (constant S256x1024 .f32 0x00000000#32)) (k0_pay27 cf) s7 (ix2 p q)
      = project wp (step (cf (ix2 p 7)) (mat1 s7) (step (cf (ix2 p 6)) (mat1 s6) (row t p))) q := by
  unfold k0_pay2 k0_pay27 k0_pay1 k0_pay24 k0_pay8
  simp only [shapeCast_self]
  rw [matmulNT_apply ntP, kstep (s := s7) (o := 7) (j := 7) (hj := rfl), kstep (s := s6) (o := 6) (j := 6) (hj := rfl)]

/-! ## The second half's groups -/

/-- Updates 0, 1, 2 of the second half. -/
theorem pay16_row (x : Vec Ideal S256x1024 .f32) (cf : FVec Ideal S256x8 .f32) (s0 s1 s2 : Vec Ideal S1x1024x1024 .bf16)
    (p : Fin 256) :
    row (k0_pay16 x cf (k0_pay11 s0) s1 s2) p
      = step (cf (ix2 p 2)) (mat1 s2) (step (cf (ix2 p 1)) (mat1 s1) (step (cf (ix2 p 0)) (mat1 s0) (row x p))) := by
  unfold k0_pay16 k0_pay11 k0_pay13 k0_pay14
  rw [kstep (s := s2) (o := 2) (j := 2) (hj := rfl), kstep (s := s1) (o := 1) (j := 1) (hj := rfl),
    kstep (s := s0) (o := 0) (j := 0) (hj := rfl)]

/-- Updates 3, 4, 5 of the second half, from the running matrix `t` after update 2. -/
theorem pay23_row (cf : FVec Ideal S256x8 .f32) (t : FVec Ideal S256x1024 .f32) (s3 s4 s5 : Vec Ideal S1x1024x1024 .bf16)
    (p : Fin 256) :
    row (k0_pay23 cf t (k0_pay17 s3) (truncf .bf16 t bitsLt_bf16_f32) (constant S256x1024 .f32 0x00000000#32) s4 s5) p
      = step (cf (ix2 p 5)) (mat1 s5) (step (cf (ix2 p 4)) (mat1 s4) (step (cf (ix2 p 3)) (mat1 s3) (row t p))) := by
  unfold k0_pay23 k0_pay17 k0_pay20 k0_pay21
  rw [kstep (s := s5) (o := 5) (j := 5) (hj := rfl), kstep (s := s4) (o := 4) (j := 4) (hj := rfl),
    kstep (s := s3) (o := 3) (j := 3) (hj := rfl)]

/-- Updates 6, 7 and the projection of the second half, from the running matrix `t` after update 5. -/
theorem pay3_apply (wp : Vec Ideal S1024x1024 .bf16) (cf : FVec Ideal S256x8 .f32) (t : FVec Ideal S256x1024 .f32)
    (s6 s7 : Vec Ideal S1x1024x1024 .bf16) (p : Fin 256) (q : Fin 1024) :
    k0_pay3 (k0_pay8 wp) cf t (matmul dot_S256x1024_S1024x1024_S256x1024_1_0_0_1_n_n none (truncf .bf16 t bitsLt_bf16_f32)
        (k0_pay24 s6) (constant S256x1024 .f32 0x00000000#32)) (k0_pay28 cf) s7 (ix2 p q)
      = project wp (step (cf (ix2 p 7)) (mat1 s7) (step (cf (ix2 p 6)) (mat1 s6) (row t p))) q := by
  unfold k0_pay3 k0_pay28 k0_pay1 k0_pay24 k0_pay8
  simp only [shapeCast_self]
  rw [matmulNT_apply ntP, kstep (s := s7) (o := 7) (j := 7) (hj := rfl), kstep (s := s6) (o := 6) (j := 6) (hj := rfl)]

/-! ## A half, whole -/

/-- The eight updates of row `p` of a half, for a coefficient matrix `cf` and eight loaded slabs. -/
def updates (cf : FVec Ideal S256x8 .f32) (s0 s1 s2 s3 s4 s5 s6 s7 : Vec Ideal S1x1024x1024 .bf16) (x : Vec Ideal S256x1024 .f32)
    (p : Fin 256) : Fin 1024 → EReal :=
  step (cf (ix2 p 7)) (mat1 s7) (step (cf (ix2 p 6)) (mat1 s6) (step (cf (ix2 p 5)) (mat1 s5) (step (cf (ix2 p 4)) (mat1 s4)
    (step (cf (ix2 p 3)) (mat1 s3) (step (cf (ix2 p 2)) (mat1 s2) (step (cf (ix2 p 1)) (mat1 s1)
      (step (cf (ix2 p 0)) (mat1 s0) (row x p))))))))

/-- What the first half stores at `(p, q)`: the projection of the eight updates of its row `p`. -/
theorem halfA (wp : Vec Ideal S1024x1024 .bf16) (cf : FVec Ideal S256x8 .f32) (x : Vec Ideal S256x1024 .f32)
    (s0 s1 s2 s3 s4 s5 s6 s7 : Vec Ideal S1x1024x1024 .bf16) (p : Fin 256) (q : Fin 1024) :
    k0_pay2 (k0_pay8 wp) cf (k0_pay22 cf (k0_pay15 x cf (k0_pay11 s0) (k0_pay12 x) (constant S256x1024 .f32 0x00000000#32) s1 s2) (k0_pay18 x cf (k0_pay11 s0) (k0_pay12 x) (constant S256x1024 .f32 0x00000000#32) s1 s2 s3) s4 s5)
        (k0_pay25 cf (k0_pay15 x cf (k0_pay11 s0) (k0_pay12 x) (constant S256x1024 .f32 0x00000000#32) s1 s2) (k0_pay18 x cf (k0_pay11 s0) (k0_pay12 x) (constant S256x1024 .f32 0x00000000#32) s1 s2 s3) s4 s5 s6) (k0_pay27 cf) s7 (ix2 p q)
      = project wp (updates cf s0 s1 s2 s3 s4 s5 s6 s7 x p) q := by
  unfold k0_pay25 k0_pay18
  rw [pay2_apply, pay22_row, pay15_row]
  rfl

/-- What the second half stores at `(p, q)`: the same function of its own rows. -/
theorem halfB (wp : Vec Ideal S1024x1024 .bf16) (cf : FVec Ideal S256x8 .f32) (x : Vec Ideal S256x1024 .f32)
    (s0 s1 s2 s3 s4 s5 s6 s7 : Vec Ideal S1x1024x1024 .bf16) (p : Fin 256) (q : Fin 1024) :
    k0_pay3 (k0_pay8 wp) cf (k0_pay23 cf (k0_pay16 x cf (k0_pay11 s0) s1 s2) (k0_pay17 s3) (k0_pay19 x cf (k0_pay11 s0) s1 s2) (constant S256x1024 .f32 0x00000000#32) s4 s5)
        (k0_pay26 cf (k0_pay16 x cf (k0_pay11 s0) s1 s2) (k0_pay17 s3) (k0_pay19 x cf (k0_pay11 s0) s1 s2) (constant S256x1024 .f32 0x00000000#32) s4 s5 s6) (k0_pay28 cf) s7 (ix2 p q)
      = project wp (updates cf s0 s1 s2 s3 s4 s5 s6 s7 x p) q := by
  unfold k0_pay26 k0_pay19
  rw [pay3_apply, pay23_row, pay16_row]
  rfl

/-! ## The loads -/

theorem hz2 : (![0, 0] : Fin 2 → Nat) = fun _ => 0 := funext fun a => by fin_cases a <;> rfl

/-- Slab `j` of the task tensor, loaded through the `[1, 1024, 1024]` box at offset `j` of the leading axis. -/
theorem mat1_ld (X : Vec Ideal S8x1024x1024 .bf16) (o : ℕ) (j : Fin 8) (hj : j.val = o + (0 : Fin 1).val)
    (inb : ∀ a, (![o, 0, 0] : Fin 3 → ℕ) a + S1x1024x1024.size a ≤ S8x1024x1024.size a) :
    mat1 (View.ld X (Rect.unit (s := S8x1024x1024) ![o, 0, 0] S1x1024x1024.size inb)) = slab X j :=
  funext fun k => funext fun q =>
    Cert.LoadAt.ld_unit3 (A := 8) (B := 1024) (C := 1024) (a := 1) (b := 1024) (c := 1024) X inb (0 : Fin 1) k q j k q hj
      (Nat.zero_add _).symm (Nat.zero_add _).symm

/-- Row `p` of a half loaded at row offset `o` of the tile is row `o + p` of the tile. -/
theorem row_ld (X : Vec Ideal S512x1024 .f32) (o : ℕ)
    (inb : ∀ a, (![o, 0] : Fin 2 → ℕ) a + S256x1024.size a ≤ S512x1024.size a) (p : Fin 256) (P : Fin 512)
    (hP : P.val = o + p.val) :
    row (View.ld X (Rect.unit (s := S512x1024) ![o, 0] S256x1024.size inb)) p = row X P :=
  funext fun k =>
    Cert.LoadAt.ld_unit2 (A := 512) (B := 1024) (a := 256) (b := 1024) X inb p k P k hP (Nat.zero_add _).symm

/-! ## A half against one output row -/

/-- Entry `q` of the output row made from input row `r`, with the tile's operands: the biases are the `[1, ·]` rows
    the body loads. -/
def tileRow (x1 : Vec Ideal S256x1024 .bf16) (x2 : Vec Ideal S1x256 .f32) (x3 : Vec Ideal S8x256 .bf16)
    (x4 : Vec Ideal S1x8 .f32) (x5 : Vec Ideal S8x1024x1024 .bf16) (x6 : Vec Ideal S1024x1024 .bf16)
    (r : Fin 1024 → EReal) : Fin 1024 → EReal :=
  outRow x1 (fun a => x2 (ix2 (0 : Fin 1) a)) x3 (fun j => x4 (ix2 (0 : Fin 1) j)) x5 x6 r

/-- The projection of a half's eight updates is `tileRow` of the half's row, once the coefficient matrix's row `p`
    is the router's on that row. -/
theorem half_eq (x1 : Vec Ideal S256x1024 .bf16) (x2 : Vec Ideal S1x256 .f32) (x3 : Vec Ideal S8x256 .bf16)
    (x4 : Vec Ideal S1x8 .f32) (x5 : Vec Ideal S8x1024x1024 .bf16) (x6 : Vec Ideal S1024x1024 .bf16)
    (xh : Vec Ideal S256x1024 .f32) (cf : FVec Ideal S256x8 .f32) (p : Fin 256) (q : Fin 1024)
    (hcf : ∀ j : Fin 8, cf (ix2 p j)
      = coeff x3 (fun j => x4 (ix2 (0 : Fin 1) j)) (hidden x1 (fun a => x2 (ix2 (0 : Fin 1) a)) (row xh p)) j) :
    project (View.ld x6 r0_4) (updates cf (View.ld x5 r0_7) (View.ld x5 r0_8) (View.ld x5 r0_9) (View.ld x5 r0_10) (View.ld x5 r0_11) (View.ld x5 r0_12) (View.ld x5 r0_13) (View.ld x5 r0_14) xh p) q = tileRow x1 x2 x3 x4 x5 x6 (row xh p) q := by
  unfold updates tileRow outRow chain
  rw [View.ld_unit_zero hz2 _ x6, hcf 0, hcf 1, hcf 2, hcf 3, hcf 4, hcf 5, hcf 6, hcf 7,
    mat1_ld x5 0 0 rfl, mat1_ld x5 1 1 rfl, mat1_ld x5 2 2 rfl, mat1_ld x5 3 3 rfl,
    mat1_ld x5 4 4 rfl, mat1_ld x5 5 5 rfl, mat1_ld x5 6 6 rfl, mat1_ld x5 7 7 rfl]

/-- The router's coefficients of a half, with the operands read through the whole-buffer loads. -/
theorem router_ld (x1 : Vec Ideal S256x1024 .bf16) (x2 : Vec Ideal S1x256 .f32) (x3 : Vec Ideal S8x256 .bf16)
    (x4 : Vec Ideal S1x8 .f32) (xh : Vec Ideal S256x1024 .f32) (p : Fin 256) (j : Fin 8) :
    k0_pay9 (View.ld x1 r0_0) (View.ld x2 r0_1) (View.ld x3 r0_2) (View.ld x4 r0_3) xh (ix2 p j)
      = coeff x3 (fun j => x4 (ix2 (0 : Fin 1) j)) (hidden x1 (fun a => x2 (ix2 (0 : Fin 1) a)) (row xh p)) j := by
  rw [router9, View.ld_unit_zero hz2 _ x1, View.ld_unit_zero hz2 _ x2, View.ld_unit_zero hz2 _ x3,
    View.ld_unit_zero hz2 _ x4]

/-! ## The tile -/

/-- What the output tile holds: entry `(P, q)` is entry `q` of the output row made from the tile's row `P`. -/
def tileFn (x0 : Vec Ideal S512x1024 .f32) (x1 : Vec Ideal S256x1024 .bf16) (x2 : Vec Ideal S1x256 .f32)
    (x3 : Vec Ideal S8x256 .bf16) (x4 : Vec Ideal S1x8 .f32) (x5 : Vec Ideal S8x1024x1024 .bf16)
    (x6 : Vec Ideal S1024x1024 .bf16) : S512x1024.Idx → EReal :=
  fun y => tileRow x1 x2 x3 x4 x5 x6 (row x0 (y 0)) (y 1)

/-- The body's two stores, the second half's over rows 256–511 and the first half's over rows 0–255, leave `tileFn`
    in the output buffer. -/
theorem tile_apply (x0 : Vec Ideal S512x1024 .f32) (x1 : Vec Ideal S256x1024 .bf16) (x2 : Vec Ideal S1x256 .f32)
    (x3 : Vec Ideal S8x256 .bf16) (x4 : Vec Ideal S1x8 .f32) (x5 : Vec Ideal S8x1024x1024 .bf16)
    (x6 : Vec Ideal S1024x1024 .bf16) : out0_7 x0 x1 x2 x3 x4 x5 x6 = tileFn x0 x1 x2 x3 x4 x5 x6 := by
  funext y
  unfold out0_7
  refine View.canon_apply_of_pieces (Val := Elt Ideal) (tileFn x0 x1 x2 x3 x4 x5 x6) _ ?_ y (cover0_7 _ _ y)
  intro pc hpc x
  rcases List.mem_cons.mp hpc with rfl | hpc
  · obtain ⟨p, q, rfl⟩ : ∃ (p : Fin 256) (q : Fin 1024), x = ix2 p q := ⟨x 0, x 1, eq_ix2 x⟩
    refine (halfB _ _ _ _ _ _ _ _ _ _ _ p q).trans ?_
    refine Eq.trans ?_ (Cert.LoadAt.ld_unit2 (Val := Elt Ideal) (e := .f32) (A := 512) (B := 1024) (a := 256) (b := 1024) (tileFn x0 x1 x2 x3 x4 x5 x6)
      inb_S512x1024_S256x1024_256_0 p q ⟨256 + p.val, by have := p.isLt; omega⟩ q rfl (Nat.zero_add _).symm).symm
    show _ = tileRow x1 x2 x3 x4 x5 x6 (row x0 ⟨256 + p.val, _⟩) q
    rw [← row_ld x0 256 inb_S512x1024_S256x1024_256_0 p ⟨256 + p.val, by have := p.isLt; omega⟩ rfl, router10_eq]
    exact half_eq x1 x2 x3 x4 x5 x6 _ _ p q (router_ld x1 x2 x3 x4 _ p)
  · rcases List.mem_cons.mp hpc with rfl | hpc
    · obtain ⟨p, q, rfl⟩ : ∃ (p : Fin 256) (q : Fin 1024), x = ix2 p q := ⟨x 0, x 1, eq_ix2 x⟩
      refine (halfA _ _ _ _ _ _ _ _ _ _ _ p q).trans ?_
      refine Eq.trans ?_ (Cert.LoadAt.ld_unit2 (Val := Elt Ideal) (e := .f32) (A := 512) (B := 1024) (a := 256) (b := 1024) (tileFn x0 x1 x2 x3 x4 x5 x6)
        inb_S512x1024_S256x1024_0_0 p q ⟨0 + p.val, by have := p.isLt; omega⟩ q rfl (Nat.zero_add _).symm).symm
      show _ = tileRow x1 x2 x3 x4 x5 x6 (row x0 ⟨0 + p.val, _⟩) q
      rw [← row_ld x0 0 inb_S512x1024_S256x1024_0_0 p ⟨0 + p.val, by have := p.isLt; omega⟩ rfl]
      exact half_eq x1 x2 x3 x4 x5 x6 _ _ p q (router_ld x1 x2 x3 x4 _ p)
    · exact absurd hpc (List.not_mem_nil)

end Cert.KernelIdeal.Tile

end
-- ==== Proof.KernelArray.lean ====
/-
  From the tiles to the whole result array of the kernel.

  The grid has eight points; point `t` works on rows `512·t … 512·t + 511` of the features and writes the same
  rows of the result. The other six operands are whole arrays staged once: the weights after a change of float
  format (the identity on the extended reals), the two biases reshaped from vectors to `[1, ·]` rows. So the
  block a point writes back is the restriction of ONE function of the argument arrays — `TaskRows.result` — to
  the point's rows, the eight blocks cover the 4096 rows, and the result array after the run is that function.
-/
import proofs.«156942_j773094113739_2_alg».proof.Proof.Gen.KernelIdeal.Value
import proofs.«156942_j773094113739_2_alg».proof.Proof.KernelTile
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Tile Idealize.ShloMosaic Idealize.ShloMosaic.TcCoe
open Idealize.SL.Sem Idealize.ShloMosaic.ValueIdx Cert.TaskRows
open Idealize.ShloMosaic.Pipeline (Dat)

variable (m : (ℓ : Loc nD τ sig) → Buf (Elt Ideal) ℓ) (ρ : Dev nD → PrngReg)

/-- The result as one function of the argument arrays as launched. -/
def whole (c : Dev nD) : S4096x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## What the region finds in the arrays the host wrote -/

theorem V_v0 (c : Dev nD) : (V m c main_v0 : S256x1024.Idx → EReal) = m ((c : Thread nD τ).loc main_arg1) := by
  dsimp only [V, hostOps0]; after_results; rfl

theorem V_v1 (c : Dev nD) : (V m c main_v1 : S8x256.Idx → EReal) = m ((c : Thread nD τ).loc main_arg3) := by
  dsimp only [V, hostOps0]; after_results; rfl

theorem V_v2 (c : Dev nD) : (V m c main_v2 : S8x1024x1024.Idx → EReal) = m ((c : Thread nD τ).loc main_arg5) := by
  dsimp only [V, hostOps0]; after_results; rfl

theorem V_v3 (c : Dev nD) : (V m c main_v3 : S1024x1024.Idx → EReal) = m ((c : Thread nD τ).loc main_arg6) := by
  dsimp only [V, hostOps0]; after_results; rfl

theorem V_v4 (c : Dev nD) : (V m c main_v4 : S1x256.Idx → EReal)
    = shapeCast S1x256 (m ((c : Thread nD τ).loc main_arg2) : S256.Idx → EReal) shapeCasts_S256_S1x256 := by
  dsimp only [V, hostOps0]; after_results; rfl

theorem V_v5 (c : Dev nD) : (V m c main_v5 : S1x8.Idx → EReal)
    = shapeCast S1x8 (m ((c : Thread nD τ).loc main_arg4) : S8.Idx → EReal) shapeCasts_S8_S1x8 := by
  dsimp only [V, hostOps0]; after_results; rfl

/-! ## The windows' blocks at a point -/

/-- The printed index maps, decided over the eight points: the features and the result move one block of 512 rows
    per point, every other window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt8 (t : Fin cfg0.N) : t.val < 8 := t.isLt.trans_eq N_0

/-- Row `P` of the features' block at point `t` is row `512·t + P` of the features. -/
theorem blk0_row (c : Dev nD) (t : Fin cfg0.N) (P : Fin 512) (R : Fin 4096) (hR : R.val = t.val * 512 + P.val) :
    row (iblk m c 0 t) P = row (m ((c : Thread nD τ).loc main_arg0)) R := by
  funext k
  show V m c main_arg0 (((cfg0.win 0).blk t).view.emb (ix2 P k)) = m ((c : Thread nD τ).loc main_arg0) (ix2 R k)
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 512 + 1 * P.val = R.val; omega
  | ⟨1, _⟩ => show win0_0.index t (1 : Fin 2) * 1024 + 1 * k.val = k.val; omega

/-- The first-layer weights' block is the whole array. -/
theorem blk1 (c : Dev nD) (t : Fin cfg0.N) : iblk m c 1 t = m ((c : Thread nD τ).loc main_arg1) := by
  funext y
  show V m c main_v0 (((cfg0.win 1).blk t).view.emb y) = m ((c : Thread nD τ).loc main_arg1) y
  rw [V_v0]
  refine congrArg (m ((c : Thread nD τ).loc main_arg1)) (funext fun a => Fin.ext ?_)
  obtain ⟨-, -, e0, e1, -⟩ := idx_facts t
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- The first bias' block, read along its one row, is the bias vector. -/
theorem blk2 (c : Dev nD) (t : Fin cfg0.N) (a : Fin 256) :
    iblk m c 2 t (ix2 (0 : Fin 1) a) = m ((c : Thread nD τ).loc main_arg2) (ix1 a) := by
  show V m c main_v4 (((cfg0.win 2).blk t).view.emb (ix2 (0 : Fin 1) a)) = _
  rw [V_v4]
  refine Eq.trans (congrArg _ (funext fun b => Fin.ext ?_)) (shapeCast_a_1a_apply _ shapeCasts_S256_S1x256 (0 : Fin 1) a)
  obtain ⟨-, -, -, -, e0, e1, -⟩ := idx_facts t
  match b with
  | ⟨0, _⟩ => show win0_2.index t (0 : Fin 2) * 1 + 1 * (0 : Fin 1).val = (0 : Fin 1).val; omega
  | ⟨1, _⟩ => show win0_2.index t (1 : Fin 2) * 256 + 1 * a.val = a.val; omega

/-- The second-layer weights' block is the whole array. -/
theorem blk3 (c : Dev nD) (t : Fin cfg0.N) : iblk m c 3 t = m ((c : Thread nD τ).loc main_arg3) := by
  funext y
  show V m c main_v1 (((cfg0.win 3).blk t).view.emb y) = m ((c : Thread nD τ).loc main_arg3) y
  rw [V_v1]
  refine congrArg (m ((c : Thread nD τ).loc main_arg3)) (funext fun a => Fin.ext ?_)
  obtain ⟨-, -, -, -, -, -, e0, e1, -⟩ := idx_facts t
  match a with
  | ⟨0, _⟩ => show win0_3.index t (0 : Fin 2) * 8 + 1 * (y 0).val = (y 0).val; omega
  | ⟨1, _⟩ => show win0_3.index t (1 : Fin 2) * 256 + 1 * (y 1).val = (y 1).val; omega

/-- The second bias' block, read along its one row, is the bias vector. -/
theorem blk4 (c : Dev nD) (t : Fin cfg0.N) (j : Fin 8) :
    iblk m c 4 t (ix2 (0 : Fin 1) j) = m ((c : Thread nD τ).loc main_arg4) (ix1 j) := by
  show V m c main_v5 (((cfg0.win 4).blk t).view.emb (ix2 (0 : Fin 1) j)) = _
  rw [V_v5]
  refine Eq.trans (congrArg _ (funext fun b => Fin.ext ?_)) (shapeCast_a_1a_apply _ shapeCasts_S8_S1x8 (0 : Fin 1) j)
  obtain ⟨-, -, -, -, -, -, -, -, e0, e1, -⟩ := idx_facts t
  match b with
  | ⟨0, _⟩ => show win0_4.index t (0 : Fin 2) * 1 + 1 * (0 : Fin 1).val = (0 : Fin 1).val; omega
  | ⟨1, _⟩ => show win0_4.index t (1 : Fin 2) * 8 + 1 * j.val = j.val; omega

/-- The task tensor's block is the whole array. -/
theorem blk5 (c : Dev nD) (t : Fin cfg0.N) : iblk m c 5 t = m ((c : Thread nD τ).loc main_arg5) := by
  funext y
  show V m c main_v2 (((cfg0.win 5).blk t).view.emb y) = m ((c : Thread nD τ).loc main_arg5) y
  rw [V_v2]
  refine congrArg (m ((c : Thread nD τ).loc main_arg5)) (funext fun a => Fin.ext ?_)
  obtain ⟨-, -, -, -, -, -, -, -, -, -, e0, e1, e2, -⟩ := idx_facts t
  match a with
  | ⟨0, _⟩ => show win0_5.index t (0 : Fin 3) * 8 + 1 * (y 0).val = (y 0).val; omega
  | ⟨1, _⟩ => show win0_5.index t (1 : Fin 3) * 1024 + 1 * (y 1).val = (y 1).val; omega
  | ⟨2, _⟩ => show win0_5.index t (2 : Fin 3) * 1024 + 1 * (y 2).val = (y 2).val; omega

/-- The projection weights' block is the whole array. -/
theorem blk6 (c : Dev nD) (t : Fin cfg0.N) : iblk m c 6 t = m ((c : Thread nD τ).loc main_arg6) := by
  funext y
  show V m c main_v3 (((cfg0.win 6).blk t).view.emb y) = m ((c : Thread nD τ).loc main_arg6) y
  rw [V_v3]
  refine congrArg (m ((c : Thread nD τ).loc main_arg6)) (funext fun a => Fin.ext ?_)
  obtain ⟨-, -, -, -, -, -, -, -, -, -, -, -, -, e0, e1, -⟩ := idx_facts t
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-! ## A tile against the whole result -/

/-- A tile whose operands are the whole arrays (the biases along their one row) and whose row `P` is row `R` of
    the features holds, at `(P, q)`, the result's entry `(R, q)`. -/
theorem tile_whole (X0 : Vec Ideal S512x1024 .f32) (X1 : Vec Ideal S256x1024 .bf16) (X2 : Vec Ideal S1x256 .f32)
    (X3 : Vec Ideal S8x256 .bf16) (X4 : Vec Ideal S1x8 .f32) (X5 : Vec Ideal S8x1024x1024 .bf16)
    (X6 : Vec Ideal S1024x1024 .bf16)
    (A0 : S4096x1024.Idx → EReal) (A1 : S256x1024.Idx → EReal) (A2 : S256.Idx → EReal) (A3 : S8x256.Idx → EReal)
    (A4 : S8.Idx → EReal) (A5 : S8x1024x1024.Idx → EReal) (A6 : S1024x1024.Idx → EReal)
    (h1 : X1 = A1) (h2 : ∀ a : Fin 256, X2 (ix2 (0 : Fin 1) a) = A2 (ix1 a)) (h3 : X3 = A3)
    (h4 : ∀ j : Fin 8, X4 (ix2 (0 : Fin 1) j) = A4 (ix1 j)) (h5 : X5 = A5) (h6 : X6 = A6)
    (P : Fin 512) (q : Fin 1024) (R : Fin 4096) (h0 : row X0 P = row A0 R) :
    tileFn X0 X1 X2 X3 X4 X5 X6 (ix2 P q) = result A0 A1 A2 A3 A4 A5 A6 (ix2 R q) := by
  subst h1 h3 h5 h6
  show outRow X1 (fun a => X2 (ix2 (0 : Fin 1) a)) X3 (fun j => X4 (ix2 (0 : Fin 1) j)) X5 X6 (row X0 P) q
    = outRow X1 (fun a => A2 (ix1 a)) X3 (fun j => A4 (ix1 j)) X5 X6 (row A0 R) q
  rw [h0, funext h2, funext h4]

/-! ## What a point writes back, the cover, the array after the run -/

/-- WHAT POINT `t` WRITES BACK is block `t` of the result function. -/
theorem flushed_eq (c : Dev nD) (t : Fin cfg0.N) :
    (dats m 0 c).flushed 7 t = ((cfg0.win 7).blk t).view.read (Elt Ideal) (whole m c) := by
  rw [Value.flushed7, tile_apply]
  funext y
  obtain ⟨P, q, rfl⟩ : ∃ (P : Fin 512) (q : Fin 1024), y = ix2 P q := ⟨y 0, y 1, eq_ix2 y⟩
  have ht := lt8 t
  have hP := P.isLt
  show tileFn (iblk m c 0 t) (iblk m c 1 t) (iblk m c 2 t) (iblk m c 3 t) (iblk m c 4 t) (iblk m c 5 t) (iblk m c 6 t) (ix2 P q) = whole m c (((cfg0.win 7).blk t).view.emb (ix2 P q))
  have hemb : ((cfg0.win 7).blk t).view.emb (ix2 P q) = ix2 (⟨t.val * 512 + P.val, by omega⟩ : Fin 4096) q := by
    funext a; apply Fin.ext
    obtain ⟨-, -, -, -, -, -, -, -, -, -, -, -, -, -, -, e0, e1⟩ := idx_facts t
    match a with
    | ⟨0, _⟩ => show win0_7.index t (0 : Fin 2) * 512 + 1 * P.val = t.val * 512 + P.val; omega
    | ⟨1, _⟩ => show win0_7.index t (1 : Fin 2) * 1024 + 1 * q.val = q.val; omega
  rw [hemb]
  exact tile_whole _ _ _ _ _ _ _ _ _ _ _ _ _ _ (blk1 m c t) (blk2 m c t) (blk3 m c t) (blk4 m c t) (blk5 m c t) (blk6 m c t)
    P q _ (blk0_row m c t P _ rfl)

/-- An index of the result array is in point `t`'s block iff each coordinate is in the block's range on its axis. -/
theorem mem_blk (t : Fin cfg0.N) (i : S4096x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v6).slice (win0_7.rect t)).set ↔ _
  rw [View.set_slice_whole, Rect.mem_set_unit]
  exact Iff.rfl

/-- Every block of 512 rows is some point's. -/
theorem idx_onto : ∀ q0 : Fin 8, ∃ t : Fin cfg0.N, win0_7.index t (0 : Fin 2) = q0.val ∧ win0_7.index t (1 : Fin 2) = 0 :=
  (by decide +kernel : ∀ q0 : Fin 8, ∃ t : Fin grid0.N, win0_7.index t (0 : Fin 2) = q0.val ∧ win0_7.index t (1 : Fin 2) = 0)

/-- The eight blocks cover the result array: row `r` is in the block of point `r / 512`. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, q0, q1⟩ := idx_onto ⟨(i 0).val / 512, by omega⟩
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    have q0' : win0_7.index t (0 : Fin 2) = (i 0).val / 512 := q0
    omega
  | ⟨1, _⟩ =>
    show win0_7.index t (1 : Fin 2) * 1024 ≤ (i 1).val ∧ (i 1).val < win0_7.index t (1 : Fin 2) * 1024 + 1024
    omega

/-- THE RESULT ARRAY after the run is the result function of the argument arrays. -/
theorem final (c : Dev nD) : (dats m 0 c).arrAt 7 cfg0.N = whole m c :=
  (dats m 0 c).arrAt_eq_of_cover 7 (whole m c) (fun t _ => flushed_eq m c t) (cover)

/-- The kernel's run with its result named: every weakly fair execution ends with the result array at the result
    function of the arguments and the arguments unchanged. -/
theorem run : θ_run defs (onTc (τ := τ) (main (F := Ideal))) ⟨m, fun _ => 0, ρ⟩ fun r => ∀ c : Dev nD,
      r.2.mem ((c : Thread nD τ).loc main_v6) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefRows.lean ====
/-
  The reference, row by row.

  The reference works on all 4096 feature rows at once: the router's coefficients as a `[4096, 8]` matrix, then
  eight updates of the whole `[4096, 1024]` matrix, each `t + c[:, j] ⊙ (t · M_j)` with `M_j` cut out of the task
  tensor, then the product with the transposed projection weights. Row `r` of every stage depends only on row `r`
  of the features, so each stage is read as a function of that row, and the stages compose to `outRow` of the
  row: the reference's result is `TaskRows.result` of its arguments.
-/
import proofs.«156942_j773094113739_2_alg».proof.Proof.RefReadP
import proofs.«156942_j773094113739_2_alg».proof.Proof.LibRowOps

noncomputable section

open scoped BigOperators

namespace Cert.ReferenceIdeal.Rows

open Cert.ReferenceIdeal Cert.ReferenceIdeal.Gen Cert.ReferenceIdeal.ReadP Idealize.ShloMosaic
open Idealize.ShloMosaic.ValueIdx Cert.TaskRows

/-! ## The three products' dimension numbers -/

theorem plain1 : Cert.PlainDot.IsPlain dot_S4096x1024_S1024x256_S4096x256_1_0_0_1_n_n := ⟨rfl, rfl, rfl, rfl, rfl, rfl⟩
theorem plain2 : Cert.PlainDot.IsPlain dot_S4096x256_S256x8_S4096x8_1_0_0_1_n_n := ⟨rfl, rfl, rfl, rfl, rfl, rfl⟩
theorem plainD : Cert.PlainDot.IsPlain dot_S4096x1024_S1024x1024_S4096x1024_1_0_0_1_n_n := ⟨rfl, rfl, rfl, rfl, rfl, rfl⟩

variable (x0 : (⟨S4096x1024, .f32⟩ : BufTy).Contents (Elt Ideal)) (x1 : (⟨S256x1024, .f32⟩ : BufTy).Contents (Elt Ideal))
    (x2 : (⟨S256, .f32⟩ : BufTy).Contents (Elt Ideal)) (x3 : (⟨S8x256, .f32⟩ : BufTy).Contents (Elt Ideal))
    (x4 : (⟨S8, .f32⟩ : BufTy).Contents (Elt Ideal)) (x5 : (⟨S8x1024x1024, .f32⟩ : BufTy).Contents (Elt Ideal))

/-! ## The coefficients -/

/-- Entry `(r, j)` of the coefficient matrix is coefficient `j` of the router on row `r` of the features. -/
theorem coeff_apply (r : Fin 4096) (j : Fin 8) :
    val_main_v10 (F := Ideal) x0 x1 x2 x3 x4 (ix2 r j)
      = coeff x3 (fun j => x4 (ix1 j)) (hidden x1 (fun a => x2 (ix1 a)) (row x0 r)) j := by
  unfold val_main_v10 val_main_v9 val_main_v8 val_main_v7 val_main_v6 val_main_v5 val_main_call0_v0 val_main_call0_cst
    val_main_v4 val_main_v3 val_main_v2 val_main_v1 val_main_v0
  exact host_router_apply (by decide) (by decide) plain1 plain2 x0 x1 x2 x3 x4 _ _ _ _ _ _ _ r j

/-! ## The eight updates -/

/-- Update 0: the running matrix after it, row by row. -/
theorem step0 (r : Fin 4096) :
    row (val_main_v17 (F := Ideal) x0 x1 x2 x3 x4 x5) r
      = step (val_main_v10 (F := Ideal) x0 x1 x2 x3 x4 (ix2 r 0)) (slab x5 0) (row x0 r) := by
  unfold val_main_v17 val_main_v16 val_main_v15 val_main_v14 val_main_v13 val_main_v12 val_main_v11
  exact host_step_row (by decide) plainD x0 (val_main_v10 (F := Ideal) x0 x1 x2 x3 x4) x5 0 0 rfl _ _ _ _ r

/-- Update 1: the running matrix after it, row by row. -/
theorem step1 (r : Fin 4096) :
    row (val_main_v24 (F := Ideal) x0 x1 x2 x3 x4 x5) r
      = step (val_main_v10 (F := Ideal) x0 x1 x2 x3 x4 (ix2 r 1)) (slab x5 1) (row (val_main_v17 (F := Ideal) x0 x1 x2 x3 x4 x5) r) := by
  unfold val_main_v24 val_main_v23 val_main_v22 val_main_v21 val_main_v20 val_main_v19 val_main_v18
  exact host_step_row (by decide) plainD (val_main_v17 (F := Ideal) x0 x1 x2 x3 x4 x5) (val_main_v10 (F := Ideal) x0 x1 x2 x3 x4) x5 1 1 rfl _ _ _ _ r

/-- Update 2: the running matrix after it, row by row. -/
theorem step2 (r : Fin 4096) :
    row (val_main_v31 (F := Ideal) x0 x1 x2 x3 x4 x5) r
      = step (val_main_v10 (F := Ideal) x0 x1 x2 x3 x4 (ix2 r 2)) (slab x5 2) (row (val_main_v24 (F := Ideal) x0 x1 x2 x3 x4 x5) r) := by
  unfold val_main_v31 val_main_v30 val_main_v29 val_main_v28 val_main_v27 val_main_v26 val_main_v25
  exact host_step_row (by decide) plainD (val_main_v24 (F := Ideal) x0 x1 x2 x3 x4 x5) (val_main_v10 (F := Ideal) x0 x1 x2 x3 x4) x5 2 2 rfl _ _ _ _ r

/-- Update 3: the running matrix after it, row by row. -/
theorem step3 (r : Fin 4096) :
    row (val_main_v38 (F := Ideal) x0 x1 x2 x3 x4 x5) r
      = step (val_main_v10 (F := Ideal) x0 x1 x2 x3 x4 (ix2 r 3)) (slab x5 3) (row (val_main_v31 (F := Ideal) x0 x1 x2 x3 x4 x5) r) := by
  unfold val_main_v38 val_main_v37 val_main_v36 val_main_v35 val_main_v34 val_main_v33 val_main_v32
  exact host_step_row (by decide) plainD (val_main_v31 (F := Ideal) x0 x1 x2 x3 x4 x5) (val_main_v10 (F := Ideal) x0 x1 x2 x3 x4) x5 3 3 rfl _ _ _ _ r

/-- Update 4: the running matrix after it, row by row. -/
theorem step4 (r : Fin 4096) :
    row (val_main_v45 (F := Ideal) x0 x1 x2 x3 x4 x5) r
      = step (val_main_v10 (F := Ideal) x0 x1 x2 x3 x4 (ix2 r 4)) (slab x5 4) (row (val_main_v38 (F := Ideal) x0 x1 x2 x3 x4 x5) r) := by
  unfold val_main_v45 val_main_v44 val_main_v43 val_main_v42 val_main_v41 val_main_v40 val_main_v39
  exact host_step_row (by decide) plainD (val_main_v38 (F := Ideal) x0 x1 x2 x3 x4 x5) (val_main_v10 (F := Ideal) x0 x1 x2 x3 x4) x5 4 4 rfl _ _ _ _ r

/-- Update 5: the running matrix after it, row by row. -/
theorem step5 (r : Fin 4096) :
    row (val_main_v52 (F := Ideal) x0 x1 x2 x3 x4 x5) r
      = step (val_main_v10 (F := Ideal) x0 x1 x2 x3 x4 (ix2 r 5)) (slab x5 5) (row (val_main_v45 (F := Ideal) x0 x1 x2 x3 x4 x5) r) := by
  unfold val_main_v52 val_main_v51 val_main_v50 val_main_v49 val_main_v48 val_main_v47 val_main_v46
  exact host_step_row (by decide) plainD (val_main_v45 (F := Ideal) x0 x1 x2 x3 x4 x5) (val_main_v10 (F := Ideal) x0 x1 x2 x3 x4) x5 5 5 rfl _ _ _ _ r

/-- Update 6: the running matrix after it, row by row. -/
theorem step6 (r : Fin 4096) :
    row (val_main_v59 (F := Ideal) x0 x1 x2 x3 x4 x5) r
      = step (val_main_v10 (F := Ideal) x0 x1 x2 x3 x4 (ix2 r 6)) (slab x5 6) (row (val_main_v52 (F := Ideal) x0 x1 x2 x3 x4 x5) r) := by
  unfold val_main_v59 val_main_v58 val_main_v57 val_main_v56 val_main_v55 val_main_v54 val_main_v53
  exact host_step_row (by decide) plainD (val_main_v52 (F := Ideal) x0 x1 x2 x3 x4 x5) (val_main_v10 (F := Ideal) x0 x1 x2 x3 x4) x5 6 6 rfl _ _ _ _ r

/-- Update 7: the running matrix after it, row by row. -/
theorem step7 (r : Fin 4096) :
    row (val_main_v66 (F := Ideal) x0 x1 x2 x3 x4 x5) r
      = step (val_main_v10 (F := Ideal) x0 x1 x2 x3 x4 (ix2 r 7)) (slab x5 7) (row (val_main_v59 (F := Ideal) x0 x1 x2 x3 x4 x5) r) := by
  unfold val_main_v66 val_main_v65 val_main_v64 val_main_v63 val_main_v62 val_main_v61 val_main_v60
  exact host_step_row (by decide) plainD (val_main_v59 (F := Ideal) x0 x1 x2 x3 x4 x5) (val_main_v10 (F := Ideal) x0 x1 x2 x3 x4) x5 7 7 rfl _ _ _ _ r

/-! ## The result -/

/-- Entry `(r, q)` of the reference's result is entry `q` of the output row made from row `r` of the features. -/
theorem result_apply (x6 : (⟨S1024x1024, .f32⟩ : BufTy).Contents (Elt Ideal)) (r : Fin 4096) (q : Fin 1024) :
    val_main_v68 (F := Ideal) x0 x1 x2 x3 x4 x5 x6 (ix2 r q)
      = outRow x1 (fun a => x2 (ix1 a)) x3 (fun j => x4 (ix1 j)) x5 x6 (row x0 r) q := by
  unfold val_main_v68 val_main_v67
  rw [hostNT_apply plainD, step7, step6, step5, step4, step3, step2, step1, step0]
  simp only [coeff_apply]
  rfl

/-- The reference's last stage is the result function of its arguments. -/
theorem result_eq (x6 : (⟨S1024x1024, .f32⟩ : BufTy).Contents (Elt Ideal)) :
    val_main_v68 (F := Ideal) x0 x1 x2 x3 x4 x5 x6 = result x0 x1 x2 x3 x4 x5 x6 := by
  funext i
  obtain ⟨r, q, rfl⟩ : ∃ (r : Fin 4096) (q : Fin 1024), i = ix2 r q := ⟨i 0, i 1, eq_ix2 i⟩
  exact result_apply x0 x1 x2 x3 x4 x5 x6 r q

end Cert.ReferenceIdeal.Rows

end
-- ==== Proof.lean ====
/-
  Soft task-vector application, kernel against reference, on the extended reals.

  Both programs take a feature matrix `X` (4096 × 1024), a two-layer router (W1, b1, W2, b2), eight square task
  matrices `M_0 … M_7` and a projection `Wp`. For every row `x` of `X` they compute
      c = W2 · max(W1 · x + b1, 0) + b2,        t_0 = x,   t_{j+1} = t_j + c_j · (t_j · M_j)  (j = 0 … 7),
      out = Wp · t_8,
  and nothing in this mixes two rows. The reference does it for all rows at once with host operations (each
  weight matrix transposed and then a plain product). The kernel walks the rows in eight blocks of 512, inside a
  block in two halves of 256, with products that contract the weights' second axis directly, and rounds its
  matmul operands to bf16 — at the ideal instance a change of float format is the identity, a matmul into a
  zero accumulator and the host's `dot_general` are the same sum of products, and a tiling of the rows changes
  no entry. So both result arrays are ONE function of the argument arrays, `TaskRows.result` (RowSpec.lean):
    * the kernel's: a half's stored value is the projection of the eight updates of its rows (KernelTile.lean),
      the two halves tile the block, the eight blocks tile the array (KernelArray.lean);
    * the reference's: each of its stages read row by row (RefRows.lean).
  The two sides are the same sums of the same products in the same order, so no law of the extended reals that
  fails at an infinity is used and the finiteness precondition is never opened.
  The frames are the generated ones (the reference's is its run with the result dropped); the ideal pass rewrote
  nothing, so the preservation claim is `True`.
-/
import proofs.«156942_j773094113739_2_alg».proof.Defs
import proofs.«156942_j773094113739_2_alg».proof.Proof.Gen.Kernel
import proofs.«156942_j773094113739_2_alg».proof.Proof.Gen.Kernel.Frame
import proofs.«156942_j773094113739_2_alg».proof.Proof.Gen.KernelIdeal
import proofs.«156942_j773094113739_2_alg».proof.Proof.Gen.KernelIdeal.Frame
import proofs.«156942_j773094113739_2_alg».proof.Proof.Gen.KernelIdeal.Value
import proofs.«156942_j773094113739_2_alg».proof.Proof.Gen.ReferenceIdeal
import proofs.«156942_j773094113739_2_alg».proof.Proof.Gen.Pre_finite_inputs
import proofs.«156942_j773094113739_2_alg».proof.Proof.RefRunP
import proofs.«156942_j773094113739_2_alg».proof.Proof.RefReadP
import proofs.«156942_j773094113739_2_alg».proof.Proof.KernelArray
import proofs.«156942_j773094113739_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- From memories that agree on the arguments, the kernel's result array and the reference's are both
    `TaskRows.result` of those arguments. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v68_eq, Cert.ReferenceIdeal.Rows.result_eq]
  obtain ⟨h0, h1, h2, h3, h4, h5, h6⟩ := hagree c
  rw [h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
